-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S2048x32x64 : Shape := ⟨3, ![2048, 32, 64]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S2048x32x64 : S_.BroadcastsInDim S2048x32x64 (![] : Fin 0 → Fin S2048x32x64.rank)
  reducesTo_S2048x32x64_S_d0_1_2 : S2048x32x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4096x64 .f32) (main_arg1 : FVec F S2048x32x64 .f32) (main_arg2 : FVec F S64x64 .f32) (main_arg3 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S2048x32x64 .f32 := Host.absf main_arg1
  let main_cst_0 : FVec F S_ .f32 := constant S_ .f32 0x7F800000#32
  let main_v5 : FVec F S2048x32x64 .f32 := broadcastInDim S2048x32x64 ![] bcast_S_S2048x32x64 main_cst_0
  let main_v6 : IVec S2048x32x64 1 := cmpf .olt main_v4 main_v5
  let main_c_1 : IVec S_ 1 := constantI S_ 1 1#1
  let main_v7 : IVec S_ 1 := (fun x v => Host.reduce IntOp.andi x v reducesTo_S2048x32x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4096x64 : Shape := ⟨2, ![4096, 64]⟩
abbrev S2048x32x64 : Shape := ⟨3, ![2048, 32, 64]⟩
abbrev S64x64 : Shape := ⟨2, ![64, 64]⟩
abbrev S64 : Shape := ⟨1, ![64]⟩
abbrev S65536x64 : Shape := ⟨2, ![65536, 64]⟩
abbrev S1x64 : Shape := ⟨2, ![1, 64]⟩
abbrev S2048x64 : Shape := ⟨2, ![2048, 64]⟩
abbrev S1024x64 : Shape := ⟨2, ![1024, 64]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x64, .f32⟩
  | .hbm, ⟨1, _⟩ => ⟨S2048x32x64, .f32⟩
  | .hbm, ⟨2, _⟩ => ⟨S64x64, .f32⟩
  | .hbm, ⟨3, _⟩ => ⟨S64, .f32⟩
  | .hbm, ⟨4, _⟩ => ⟨S65536x64, .f32⟩
  | .hbm, ⟨5, _⟩ => ⟨S1x64, .f32⟩
  | .hbm, ⟨6, _⟩ => ⟨S4096x64, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S64x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x1, .f32⟩
  | .local _ .vmem, ⟨9, _⟩ => ⟨S64x64, .f32⟩
  | .local _ .vmem, ⟨10, _⟩ => ⟨S2048x64, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v22 : BitVec 1 := Scalar.cmpi .eq arg1 c63_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048x32x64_S65536x64 : S2048x32x64.ShapeCasts S65536x64
  shapeCasts_S64_S1x64 : S64.ShapeCasts S1x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S2048x1024_S2048 : S2048x1024.Reduces [1] S2048
  shapeCasts_S2048_S2048x1 : S2048.ShapeCasts S2048x1
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S2048x64_S1024x64_S2048x1024_1_1_0_0_n_n_wf : DotDims.WF S2048x64 S1024x64 S2048x1024 [1] [1] [0] [0] [] []
  dot_S1024x64_S1024x64_S64x64_0_0_1_1_n_n_wf : DotDims.WF S1024x64 S1024x64 S64x64 [0] [0] [1] [1] [] []
  dot_S2048x64_S64x64_S2048x64_1_0_0_1_n_n_wf : DotDims.WF S2048x64 S64x64 S2048x64 [1] [0] [0] [1] [] []
  dot_S2048x64_S64x64_S2048x64_1_1_0_0_n_n_wf : DotDims.WF S2048x64 S64x64 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S4096x64.size a
  hwx0_0 : ∀ i : grid0.Coords, EltTy.bits .f32 = 32 ∨ (Rect.block (s := S4096x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S65536x64.size a
  hwx0_1 : ∀ i : grid0.Coords, EltTy.bits .f32 = 32 ∨ (Rect.block (s := S65536x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S4096x64.size a
  hwx0_4 : ∀ i : grid0.Coords, EltTy.bits .f32 = 32 ∨ (Rect.block (s := S4096x64) S2048x64.size (cc0_transform_4 i) (hinb0_4 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x64 : Shape := ⟨2, ![4096, 64]⟩
abbrev S2048x32x64 : Shape := ⟨3, ![2048, 32, 64]⟩
abbrev S64x64 : Shape := ⟨2, ![64, 64]⟩
abbrev S64 : Shape := ⟨1, ![64]⟩
abbrev S65536x64 : Shape := ⟨2, ![65536, 64]⟩
abbrev S4096x65536 : Shape := ⟨2, ![4096, 65536]⟩
abbrev S_ : Shape := ⟨0, ![]⟩
abbrev S4096 : Shape := ⟨1, ![4096]⟩
abbrev S4096x1 : Shape := ⟨2, ![4096, 1]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S2048x32x64, .f32⟩
  | .hbm, ⟨2, _⟩ => ⟨S64x64, .f32⟩
  | .hbm, ⟨3, _⟩ => ⟨S64, .f32⟩
  | .hbm, ⟨4, _⟩ => ⟨S65536x64, .f32⟩
  | .hbm, ⟨5, _⟩ => ⟨S4096x65536, .f32⟩
  | .hbm, ⟨6, _⟩ => ⟨S4096x65536, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x65536, .f32⟩
  | .hbm, ⟨14, _⟩ => ⟨S4096x65536, .f32⟩
  | .hbm, ⟨15, _⟩ => ⟨S4096x64, .f32⟩
  | .hbm, ⟨16, _⟩ => ⟨S_, .f32⟩
  | .hbm, ⟨17, _⟩ => ⟨S4096x64, .f32⟩
  | .hbm, ⟨18, _⟩ => ⟨S4096x64, .f32⟩
  | .hbm, ⟨19, _⟩ => ⟨S64x64, .f32⟩
  | .hbm, ⟨20, _⟩ => ⟨S4096x64, .f32⟩
  | .hbm, ⟨21, _⟩ => ⟨S1x64, .f32⟩
  | .hbm, ⟨22, _⟩ => ⟨S4096x64, .f32⟩
  | .hbm, ⟨23, _⟩ => ⟨S4096x64, .f32⟩
  | .hbm, ⟨24, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S2048x32x64_S65536x64 : S2048x32x64.ShapeCasts S65536x64
  reducesTo_S4096x65536_S4096_d1 : S4096x65536.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x65536_0_1 : S4096x1.BroadcastsInDim S4096x65536 (![0, 1] : Fin 2 → Fin S4096x65536.rank)
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x64_S65536x64_S4096x65536_1_1_0_0_n_n_wf : DotDims.WF S4096x64 S65536x64 S4096x65536 [1] [1] [0] [0] [] []
  dot_S4096x65536_S65536x64_S4096x64_1_0_0_1_n_n_wf : DotDims.WF S4096x65536 S65536x64 S4096x64 [1] [0] [0] [1] [] []
  dot_S4096x64_S64x64_S4096x64_1_0_0_1_n_n_wf : DotDims.WF S4096x64 S64x64 S4096x64 [1] [0] [0] [1] [] []

variable [Facts₀]

def dot_S4096x64_S65536x64_S4096x65536_1_1_0_0_n_n : DotDims S4096x64 S65536x64 S4096x65536 where
  lhsContracting := [1]
  rhsContracting := [1]
  lhsNonContracting := [0]
  rhsNonContracting := [0]
  lhsBatch := []
  rhsBatch := []
  wf := dot_S4096x64_S65536x64_S4096x65536_1_1_0_0_n_n_wf
def dot_S4096x65536_S65536x64_S4096x64_1_0_0_1_n_n : DotDims S4096x65536 S65536x64 S4096x64 where
  lhsContracting := [1]
  rhsContracting := [0]
  lhsNonContracting := [0]
  rhsNonContracting := [1]
  lhsBatch := []
  rhsBatch := []
  wf := dot_S4096x65536_S65536x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.Pieces.lean ====
/-
  What each of the kernel's three control cases leaves behind, as values.

  A grid point (i, j) runs the body on the j-th block of 1024 rows of the sequence matrix, for the i-th tile of 2048
  user rows. Three buffers live across the 64 points of a tile: the running L1 mass of each user row's scores (2048 × 1),
  the running Gram matrix of the sequence rows seen so far (64 × 64), and the tile of user rows itself, kept so that
  it is loaded once per tile.
    · first point of a tile (j = 0): the two running sums are reset to zero and the user tile is stored; then the
      point's own contribution is added — so what is left is "zero plus this block's contribution";
    · a middle point: each running sum is what the point before left plus this block's contribution; the user tile
      is untouched;
    · last point (j = 63): the same two additions, and then the output block is computed from the updated sums.
  The generated frame run finds, per case, the list of stores each buffer ends with; here each list is read back as
  one value: the payload of its last covering store, with every load inside it resolved to what it reads (an input
  block, a carried buffer, or — at the first point — the value stored a few lines earlier).
-/
import proofs.«131061_j90718299226372_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S2048x64 .f32) (harg2 : arg2.IsWhole) (arg3 : Memref sig .tc .vmem S1024x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x1 .f32) (harg7 : arg7.IsWhole) (arg8 : Memref sig .tc .vmem S64x64 .f32) (harg8 : arg8.IsWhole) (arg9 : Memref sig .tc .vmem S2048x64 .bf16) (harg9 : arg9.IsWhole)
    (x0 : Vec F S2048x64 .f32) (x1 : Vec F S1024x64 .f32) (x2 : Vec F S64x64 .f32) (x3 : Vec F S1x64 .f32) (xs0 : Vec F S2048x1 .f32) (xs1 : Vec F S64x64 .f32) (xs2 : Vec F S2048x64 .bf16)

/-! ## First point of a tile -/

/-- The L1 buffer after the first point: this block's row masses added to the zero just stored, the scores taken
    against the user tile just stored. -/
theorem l1_first (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay5 x1 (k0_pay3 x0) k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz, View.readCov_unit_zero (S := S2048x64) _ hz,
    View.readCov_unit_zero (S := S2048x1) _ hz]
  simp only [View.readAt_eq_ld, harg2.read_unread, harg3.read_unread, View.ld_unit_zero (S := S2048x64) hz,
    View.ld_unit_zero (S := S1024x64) hz]

/-- The Gram buffer after the first point: this block's Gram matrix added to the zero just stored. -/
theorem gram_first (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = k0_pay6 x1 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S64x64) hz, View.readCov_unit_zero (S := S64x64) _ hz]
  simp only [View.readAt_eq_ld, harg3.read_unread, View.ld_unit_zero (S := S1024x64) hz]

/-- The kept user tile after the first point: the user block, narrowed to the matrix unit's input format. -/
theorem tile_first (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = k0_pay3 x0 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz]
  simp only [View.readAt_eq_ld, harg2.read_unread, View.ld_unit_zero (S := S2048x64) hz]

/-! ## A middle point -/

/-- The L1 buffer after a middle point: what it held plus this block's row masses. -/
theorem l1_middle (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = k0_pay5 x1 xs2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg3.read_unread, harg7.read_unread, harg9.read_unread,
    View.ld_unit_zero (S := S1024x64) hz, View.ld_unit_zero (S := S2048x64) hz, View.ld_unit_zero (S := S2048x1) hz]

/-- The Gram buffer after a middle point: what it held plus this block's Gram matrix. -/
theorem gram_middle (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = k0_pay6 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg3.read_unread, harg8.read_unread, View.ld_unit_zero (S := S1024x64) hz,
    View.ld_unit_zero (S := S64x64) hz]

/-! ## Last point of a tile -/

/-- The L1 buffer after the last point: what it held plus this block's row masses. -/
theorem l1_last (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = k0_pay5 x1 xs2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg3.read_unread, harg7.read_unread, harg9.read_unread,
    View.ld_unit_zero (S := S1024x64) hz, View.ld_unit_zero (S := S2048x64) hz, View.ld_unit_zero (S := S2048x1) hz]

/-- The Gram buffer after the last point: what it held plus this block's Gram matrix. -/
theorem gram_last (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = k0_pay6 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg3.read_unread, harg8.read_unread, View.ld_unit_zero (S := S1024x64) hz,
    View.ld_unit_zero (S := S64x64) hz]

/-- The output block the last point stores: the epilogue of the two sums as just updated, the kept user tile, the
    weight and bias blocks, and the user block itself. -/
theorem out_last (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2 = k0_pay7 (k0_pay5 x1 xs2 xs0) (k0_pay6 x1 xs1) xs2 x2 x3 x0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz, View.readCov_unit_zero (S := S2048x1) _ hz, View.readCov_unit_zero (S := S64x64) _ hz]
  simp only [View.readAt_eq_ld, harg2.read_unread, harg3.read_unread, harg4.read_unread, harg5.read_unread,
    harg7.read_unread, harg8.read_unread, harg9.read_unread, View.ld_unit_zero (S := S1024x64) hz,
    View.ld_unit_zero (S := S2048x64) hz, View.ld_unit_zero (S := S2048x1) hz, View.ld_unit_zero (S := S64x64) hz,
    View.ld_unit_zero (S := S1x64) hz]

end Cert.KernelIdeal.Pieces

end
-- ==== Proof.Blocks.lean ====
/-
  Where the body's loads come from.

  The pipeline hands the body, at grid point t = 64·q + j (q the tile of 2048 user rows, j the block of 1024 sequence
  rows), four input blocks cut out of four arrays as the region finds them:
    · the user block is rows 2048·q … 2048·q + 2047 of the user matrix;
    · the sequence block is rows 1024·j … 1024·j + 1023 of the sequence matrix, which is the [2048, 32, 64] argument
      re-laid as [65536, 64] by the program before the region;
    · the weight block is the whole weight matrix, and the bias block the whole [1, 64] re-laying of the bias vector.
  The block offsets are the printed index maps evaluated at the point; they are decided once over the 128 points of
  the grid. An entry of a block is then the array's entry at (block index × block size + coordinate) on each axis.
-/
import proofs.«131061_j90718299226372_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps at every point of the grid: the user and output windows move with the tile `t / 64`, the
    sequence window with the block `t % 64`, the weight and bias windows never. -/
theorem idx_facts : ∀ t : Fin cfg0.N, win0_0.index t (0 : Fin 2) = t.val / 64 ∧ win0_0.index t (1 : Fin 2) = 0
    ∧ win0_1.index t (0 : Fin 2) = t.val % 64 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 64 ∧ win0_4.index t (1 : Fin 2) = 0 :=
  (by decide +kernel : ∀ t : Fin grid0.N, _)

/-- Entry `(r, d)` of the user block at point `t` is the user matrix at row `2048·(t / 64) + r`. -/
theorem userBlock_at (c : Dev nD) (t : Fin cfg0.N) (r : Fin 2048) (d : Fin 64) (hb : 2048 * (t.val / 64) + r.val < 4096) :
    (iblk m c 0 t : Vec F S2048x64 .f32) (ix2 r d) = V m c main_arg0 (ix2 (⟨2048 * (t.val / 64) + r.val, hb⟩ : Fin 4096) d) := by
  unfold iblk
  rw [View.read_apply]
  show V m c main_arg0 (((cfg0.win 0).blk t).view.emb (ix2 r d)) = V m c main_arg0 _
  refine congrArg (V m c main_arg0) ?_
  funext a
  apply Fin.ext
  obtain ⟨e0, e1, -⟩ := idx_facts t
  match a with
  | ⟨0, _⟩ => show win0_0.index t (0 : Fin 2) * 2048 + 1 * r.val = 2048 * (t.val / 64) + r.val; rw [e0]; omega
  | ⟨1, _⟩ => show win0_0.index t (1 : Fin 2) * 64 + 1 * d.val = d.val; rw [e1]; omega

/-- Entry `(k, d)` of the sequence block at point `t` is the sequence matrix at row `1024·(t % 64) + k`. -/
theorem seqBlock_at (c : Dev nD) (t : Fin cfg0.N) (k : Fin 1024) (d : Fin 64) (hb : 1024 * (t.val % 64) + k.val < 65536) :
    (iblk m c 1 t : Vec F S1024x64 .f32) (ix2 k d) = V m c main_v0 (ix2 (⟨1024 * (t.val % 64) + k.val, hb⟩ : Fin 65536) d) := by
  unfold iblk
  rw [View.read_apply]
  show V m c main_v0 (((cfg0.win 1).blk t).view.emb (ix2 k d)) = V m c main_v0 _
  refine congrArg (V m c main_v0) ?_
  funext a
  apply Fin.ext
  obtain ⟨-, -, e0, e1, -⟩ := idx_facts t
  match a with
  | ⟨0, _⟩ => show win0_1.index t (0 : Fin 2) * 1024 + 1 * k.val = 1024 * (t.val % 64) + k.val; rw [e0]; omega
  | ⟨1, _⟩ => show win0_1.index t (1 : Fin 2) * 64 + 1 * d.val = d.val; rw [e1]; omega

/-- The weight block at any point is the weight matrix. -/
theorem weightBlock_at (c : Dev nD) (t : Fin cfg0.N) (a b : Fin 64) :
    (iblk m c 2 t : Vec F S64x64 .f32) (ix2 a b) = V m c main_arg2 (ix2 a b) := by
  unfold iblk
  rw [View.read_apply]
  show V m c main_arg2 (((cfg0.win 2).blk t).view.emb (ix2 a b)) = V m c main_arg2 _
  refine congrArg (V m c main_arg2) ?_
  funext x
  apply Fin.ext
  obtain ⟨-, -, -, -, e0, e1, -⟩ := idx_facts t
  match x with
  | ⟨0, _⟩ => show win0_2.index t (0 : Fin 2) * 64 + 1 * a.val = a.val; rw [e0]; omega
  | ⟨1, _⟩ => show win0_2.index t (1 : Fin 2) * 64 + 1 * b.val = b.val; rw [e1]; omega

/-- The bias block at any point is the re-laid bias row. -/
theorem biasBlock_at (c : Dev nD) (t : Fin cfg0.N) (z : Fin 1) (o : Fin 64) :
    (iblk m c 3 t : Vec F S1x64 .f32) (ix2 z o) = V m c main_v1 (ix2 z o) := by
  unfold iblk
  rw [View.read_apply]
  show V m c main_v1 (((cfg0.win 3).blk t).view.emb (ix2 z o)) = V m c main_v1 _
  refine congrArg (V m c main_v1) ?_
  funext x
  apply Fin.ext
  obtain ⟨-, -, -, -, -, -, e0, e1, -⟩ := idx_facts t
  match x with
  | ⟨0, _⟩ => show win0_3.index t (0 : Fin 2) * 1 + 1 * z.val = z.val; rw [e0]; omega
  | ⟨1, _⟩ => show win0_3.index t (1 : Fin 2) * 64 + 1 * o.val = o.val; rw [e1]; omega

/-- The sequence matrix the region finds is the program's re-laying of the [2048, 32, 64] argument. -/
theorem seqArr (c : Dev nD) :
    (V m c main_v0 : S65536x64.Idx → Elt F .f32)
      = shapeCast S65536x64 (m ((c : Thread nD τ).loc main_arg1)) shapeCasts_S2048x32x64_S65536x64 := by
  dsimp only [Gen.V, Gen.hostOps0]
  after_results
  rfl

/-- The bias row the region finds is the program's re-laying of the bias vector. -/
theorem biasArr (c : Dev nD) :
    (V m c main_v1 : S1x64.Idx → Elt F .f32) = shapeCast S1x64 (m ((c : Thread nD τ).loc main_arg3)) shapeCasts_S64_S1x64 := by
  dsimp only [Gen.V, Gen.hostOps0]
  after_results
  rfl

end Cert.KernelIdeal.Blocks

end
-- ==== Proof.PayloadAt.lean ====
/-
  The body's arithmetic, read entry by entry on the extended reals.

  At the ideal instance a narrowing to the matrix unit's input format is the identity, a matrix product into a zero
  accumulator is the plain sum of products over the contracted axis, and a lane reduction is the plain sum over the lane
  axis. So each of the body's stored values has a closed form at every entry:
    · the L1 update at row r:   what the buffer held at r, plus ∑ over this block's 1024 rows k of |∑_d tile(r,d)·blk(k,d)|;
    · the Gram update at (a,b): what the buffer held at (a,b), plus ∑ over this block's rows k of blk(k,a)·blk(k,b);
    · the output at (r,o):      user(r,o) + ( ∑_e ((∑_d tile(r,d)·gram(d,e)) / max(l1(r), ε) / 65536) · W(o,e) + bias(o) ).
  The four contractions differ only in which axis of each operand is contracted; each is stated once below at
  explicit row and column coordinates.
-/
import proofs.«131061_j90718299226372_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayloadAt

open Cert.KernelIdeal Cert.KernelIdeal.Gen

theorem scores_at_lhs (j : S2048x1024.Idx) (q : dot_S2048x64_S1024x64_S2048x1024_1_1_0_0_n_n.contr.Idx) : (dot_S2048x64_S1024x64_S2048x1024_1_1_0_0_n_n.lhsIdx j q 0).val = (j 0).val := by
  unfold DotDims.lhsIdx
  rw [dif_neg (show ¬(0 : Fin S2048x64.rank) ∈ dot_S2048x64_S1024x64_S2048x1024_1_1_0_0_n_n.lhsBatch by decide),
    dif_pos (show (0 : Fin S2048x64.rank) ∈ dot_S2048x64_S1024x64_S2048x1024_1_1_0_0_n_n.lhsNonContracting by decide)]
  rfl
theorem scores_at_rhs (j : S2048x1024.Idx) (q : dot_S2048x64_S1024x64_S2048x1024_1_1_0_0_n_n.contr.Idx) : (dot_S2048x64_S1024x64_S2048x1024_1_1_0_0_n_n.rhsIdx j q 0).val = (j 1).val := by
  unfold DotDims.rhsIdx
  rw [dif_neg (show ¬(0 : Fin S1024x64.rank) ∈ dot_S2048x64_S1024x64_S2048x1024_1_1_0_0_n_n.rhsBatch by decide),
    dif_pos (show (0 : Fin S1024x64.rank) ∈ dot_S2048x64_S1024x64_S2048x1024_1_1_0_0_n_n.rhsNonContracting by decide)]
  rfl

/-- The score block: entry (a, b) contracts row `a` of the user tile with row `b` of the sequence block along the feature axis. -/
theorem scores_at (l : FVec Ideal S2048x64 .bf16) (r : FVec Ideal S1024x64 .bf16) (a : Fin 2048) (b : Fin 1024) :
    matmul dot_S2048x64_S1024x64_S2048x1024_1_1_0_0_n_n none l r (constant S2048x1024 .f32 0x00000000#32) (ix2 a b)
      = ∑ k : Fin 64, l (ix2 a k) * r (ix2 b k) := by
  refine (Ideal.matmul_constant_zero_apply dot_S2048x64_S1024x64_S2048x1024_1_1_0_0_n_n none l r (ix2 a b)).trans ?_
  rw [← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 a b) ((contrEquiv1 dot_S2048x64_S1024x64_S2048x1024_1_1_0_0_n_n 64 rfl rfl).symm k) = ix2 a k :=
    funext fun x => Fin.ext (by
      match x with
      | ⟨1, _⟩ => exact (dot_S2048x64_S1024x64_S2048x1024_1_1_0_0_n_n.lhsIdx_val_of_single rfl _ _).trans hk
      | ⟨0, _⟩ => exact scores_at_lhs _ _)
  have er : dot_S2048x64_S1024x64_S2048x1024_1_1_0_0_n_n.rhsIdx (ix2 a b) ((contrEquiv1 dot_S2048x64_S1024x64_S2048x1024_1_1_0_0_n_n 64 rfl rfl).symm k) = ix2 b k :=
    funext fun x => Fin.ext (by
      match x with
      | ⟨1, _⟩ => exact (dot_S2048x64_S1024x64_S2048x1024_1_1_0_0_n_n.rhsIdx_val_of_single rfl _ _).trans hk
      | ⟨0, _⟩ => exact scores_at_rhs _ _)
  rw [el, er]

theorem gramBlock_at_lhs (j : S64x64.Idx) (q : dot_S1024x64_S1024x64_S64x64_0_0_1_1_n_n.contr.Idx) : (dot_S1024x64_S1024x64_S64x64_0_0_1_1_n_n.lhsIdx j q 1).val = (j 0).val := by
  unfold DotDims.lhsIdx
  rw [dif_neg (show ¬(1 : Fin S1024x64.rank) ∈ dot_S1024x64_S1024x64_S64x64_0_0_1_1_n_n.lhsBatch by decide),
    dif_pos (show (1 : Fin S1024x64.rank) ∈ dot_S1024x64_S1024x64_S64x64_0_0_1_1_n_n.lhsNonContracting by decide)]
  rfl
theorem gramBlock_at_rhs (j : S64x64.Idx) (q : dot_S1024x64_S1024x64_S64x64_0_0_1_1_n_n.contr.Idx) : (dot_S1024x64_S1024x64_S64x64_0_0_1_1_n_n.rhsIdx j q 1).val = (j 1).val := by
  unfold DotDims.rhsIdx
  rw [dif_neg (show ¬(1 : Fin S1024x64.rank) ∈ dot_S1024x64_S1024x64_S64x64_0_0_1_1_n_n.rhsBatch by decide),
    dif_pos (show (1 : Fin S1024x64.rank) ∈ dot_S1024x64_S1024x64_S64x64_0_0_1_1_n_n.rhsNonContracting by decide)]
  rfl

/-- The block's Gram matrix: entry (a, b) contracts columns `a` and `b` of the sequence block along its rows. -/
theorem gramBlock_at (l : FVec Ideal S1024x64 .bf16) (r : FVec Ideal S1024x64 .bf16) (a : Fin 64) (b : Fin 64) :
    matmul dot_S1024x64_S1024x64_S64x64_0_0_1_1_n_n none l r (constant S64x64 .f32 0x00000000#32) (ix2 a b)
      = ∑ k : Fin 1024, l (ix2 k a) * r (ix2 k b) := by
  refine (Ideal.matmul_constant_zero_apply dot_S1024x64_S1024x64_S64x64_0_0_1_1_n_n none l r (ix2 a b)).trans ?_
  rw [← Equiv.sum_comp (contrEquiv1 dot_S1024x64_S1024x64_S64x64_0_0_1_1_n_n 1024 rfl rfl).symm]
  refine Finset.sum_congr rfl fun k _ => ?_
  have hk := contrEquiv1_symm_val dot_S1024x64_S1024x64_S64x64_0_0_1_1_n_n 1024 rfl rfl k
  have el : dot_S1024x64_S1024x64_S64x64_0_0_1_1_n_n.lhsIdx (ix2 a b) ((contrEquiv1 dot_S1024x64_S1024x64_S64x64_0_0_1_1_n_n 1024 rfl rfl).symm k) = ix2 k a :=
    funext fun x => Fin.ext (by
      match x with
      | ⟨0, _⟩ => exact (dot_S1024x64_S1024x64_S64x64_0_0_1_1_n_n.lhsIdx_val_of_single rfl _ _).trans hk
      | ⟨1, _⟩ => exact gramBlock_at_lhs _ _)
  have er : dot_S1024x64_S1024x64_S64x64_0_0_1_1_n_n.rhsIdx (ix2 a b) ((contrEquiv1 dot_S1024x64_S1024x64_S64x64_0_0_1_1_n_n 1024 rfl rfl).symm k) = ix2 k b :=
    funext fun x => Fin.ext (by
      match x with
      | ⟨0, _⟩ => exact (dot_S1024x64_S1024x64_S64x64_0_0_1_1_n_n.rhsIdx_val_of_single rfl _ _).trans hk
      | ⟨1, _⟩ => exact gramBlock_at_rhs _ _)
  rw [el, er]

theorem throughGram_at_lhs (j : S2048x64.Idx) (q : dot_S2048x64_S64x64_S2048x64_1_0_0_1_n_n.contr.Idx) : (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl
theorem throughGram_at_rhs (j : S2048x64.Idx) (q : dot_S2048x64_S64x64_S2048x64_1_0_0_1_n_n.contr.Idx) : (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- The user tile through the Gram matrix: entry (a, b) contracts row `a` of the tile with column `b` of the matrix. -/
theorem throughGram_at (l : FVec Ideal S2048x64 .bf16) (r : FVec Ideal S64x64 .bf16) (a : Fin 2048) (b : Fin 64) :
    matmul dot_S2048x64_S64x64_S2048x64_1_0_0_1_n_n none l r (constant S2048x64 .f32 0x00000000#32) (ix2 a b)
      = ∑ k : Fin 64, l (ix2 a k) * r (ix2 k b) := by
  refine (Ideal.matmul_constant_zero_apply dot_S2048x64_S64x64_S2048x64_1_0_0_1_n_n none l r (ix2 a b)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 a b) ((contrEquiv1 dot_S2048x64_S64x64_S2048x64_1_0_0_1_n_n 64 rfl rfl).symm k) = ix2 a k :=
    funext fun x => Fin.ext (by
      match x with
      | ⟨1, _⟩ => exact (dot_S2048x64_S64x64_S2048x64_1_0_0_1_n_n.lhsIdx_val_of_single rfl _ _).trans hk
      | ⟨0, _⟩ => exact throughGram_at_lhs _ _)
  have er : dot_S2048x64_S64x64_S2048x64_1_0_0_1_n_n.rhsIdx (ix2 a b) ((contrEquiv1 dot_S2048x64_S64x64_S2048x64_1_0_0_1_n_n 64 rfl rfl).symm k) = ix2 k b :=
    funext fun x => Fin.ext (by
      match x with
      | ⟨0, _⟩ => exact (dot_S2048x64_S64x64_S2048x64_1_0_0_1_n_n.rhsIdx_val_of_single rfl _ _).trans hk
      | ⟨1, _⟩ => exact throughGram_at_rhs _ _)
  rw [el, er]

theorem throughWeight_at_lhs (j : S2048x64.Idx) (q : dot_S2048x64_S64x64_S2048x64_1_1_0_0_n_n.contr.Idx) : (dot_S2048x64_S64x64_S2048x64_1_1_0_0_n_n.lhsIdx j q 0).val = (j 0).val := by
  unfold DotDims.lhsIdx
  rw [dif_neg (show ¬(0 : Fin S2048x64.rank) ∈ dot_S2048x64_S64x64_S2048x64_1_1_0_0_n_n.lhsBatch by decide),
    dif_pos (show (0 : Fin S2048x64.rank) ∈ dot_S2048x64_S64x64_S2048x64_1_1_0_0_n_n.lhsNonContracting by decide)]
  rfl
theorem throughWeight_at_rhs (j : S2048x64.Idx) (q : dot_S2048x64_S64x64_S2048x64_1_1_0_0_n_n.contr.Idx) : (dot_S2048x64_S64x64_S2048x64_1_1_0_0_n_n.rhsIdx j q 0).val = (j 1).val := by
  unfold DotDims.rhsIdx
  rw [dif_neg (show ¬(0 : Fin S64x64.rank) ∈ dot_S2048x64_S64x64_S2048x64_1_1_0_0_n_n.rhsBatch by decide),
    dif_pos (show (0 : Fin S64x64.rank) ∈ dot_S2048x64_S64x64_S2048x64_1_1_0_0_n_n.rhsNonContracting by decide)]
  rfl

/-- The aggregate through the weight matrix, contracted along the weight's second axis: entry (a, b) contracts row `a` with row `b` of the weights. -/
theorem throughWeight_at (l : FVec Ideal S2048x64 .bf16) (r : FVec Ideal S64x64 .bf16) (a : Fin 2048) (b : Fin 64) :
    matmul dot_S2048x64_S64x64_S2048x64_1_1_0_0_n_n none l r (constant S2048x64 .f32 0x00000000#32) (ix2 a b)
      = ∑ k : Fin 64, l (ix2 a k) * r (ix2 b k) := by
  refine (Ideal.matmul_constant_zero_apply dot_S2048x64_S64x64_S2048x64_1_1_0_0_n_n none l r (ix2 a b)).trans ?_
  rw [← Equiv.sum_comp (contrEquiv1 dot_S2048x64_S64x64_S2048x64_1_1_0_0_n_n 64 rfl rfl).symm]
  refine Finset.sum_congr rfl fun k _ => ?_
  have hk := contrEquiv1_symm_val dot_S2048x64_S64x64_S2048x64_1_1_0_0_n_n 64 rfl rfl k
  have el : dot_S2048x64_S64x64_S2048x64_1_1_0_0_n_n.lhsIdx (ix2 a b) ((contrEquiv1 dot_S2048x64_S64x64_S2048x64_1_1_0_0_n_n 64 rfl rfl).symm k) = ix2 a k :=
    funext fun x => Fin.ext (by
      match x with
      | ⟨1, _⟩ => exact (dot_S2048x64_S64x64_S2048x64_1_1_0_0_n_n.lhsIdx_val_of_single rfl _ _).trans hk
      | ⟨0, _⟩ => exact throughWeight_at_lhs _ _)
  have er : dot_S2048x64_S64x64_S2048x64_1_1_0_0_n_n.rhsIdx (ix2 a b) ((contrEquiv1 dot_S2048x64_S64x64_S2048x64_1_1_0_0_n_n 64 rfl rfl).symm k) = ix2 b k :=
    funext fun x => Fin.ext (by
      match x with
      | ⟨1, _⟩ => exact (dot_S2048x64_S64x64_S2048x64_1_1_0_0_n_n.rhsIdx_val_of_single rfl _ _).trans hk
      | ⟨0, _⟩ => exact throughWeight_at_rhs _ _)
  rw [el, er]

/-! ## The stored values, entry by entry -/

/-- The clamp on a row's L1 mass and the row count the aggregate is divided by, as the extended reals their words denote. -/
abbrev clampWord : EReal := Ideal.ofBits .f32 0x2B8CBCCC#32
abbrev countWord : EReal := Ideal.ofBits .f32 0x47800000#32

/-- The reset value of the L1 buffer is zero everywhere. -/
theorem pay1_at (j : S2048x1.Idx) : k0_pay1 (F := Ideal) j = 0 := by
  unfold k0_pay1
  simp only [shapeCast_self]
  exact Ideal.ofBits_zero_f32

/-- The reset value of the Gram buffer is zero everywhere. -/
theorem pay2_at (j : S64x64.Idx) : k0_pay2 (F := Ideal) j = 0 := by
  unfold k0_pay2
  simp only [shapeCast_self]
  exact Ideal.ofBits_zero_f32

/-- The kept user tile is the user block: the narrowing is the identity on the extended reals. -/
theorem pay3_at (x0 : Vec Ideal S2048x64 .f32) (j : S2048x64.Idx) : k0_pay3 (F := Ideal) x0 j = x0 j := by
  unfold k0_pay3
  simp only [shapeCast_self]
  rfl

/-- The L1 update at row `r`: what the buffer held, plus the block's 1024 absolute scores of that row. -/
theorem pay5_at (x1 : Vec Ideal S1024x64 .f32) (xs2 : Vec Ideal S2048x64 .bf16) (xs0 : Vec Ideal S2048x1 .f32)
    (r : Fin 2048) (z : Fin 1) :
    k0_pay5 (F := Ideal) x1 xs2 xs0 (ix2 r z)
      = xs0 (ix2 r z) + ∑ k : Fin 1024, max (∑ d : Fin 64, xs2 (ix2 r d) * x1 (ix2 k d))
          (-(∑ d : Fin 64, xs2 (ix2 r d) * x1 (ix2 k d))) := by
  unfold k0_pay5 k0_pay4
  simp only [shapeCast_self]
  refine congrArg (xs0 (ix2 r z) + ·) ?_
  refine (shapeCast_apply _ shapeCasts_S2048_S2048x1 (ix2 r z) (ix1 r) ?_).trans ?_
  · rewrite [Shape.rowMajor_val_one, Shape.rowMajor_val_two]
    have hz := z.isLt
    show r.val = r.val * 1 + z.val
    omega
  refine (Ideal.multiReduction_add_single _ _ reduces_S2048x1024_S2048 _ _ (ix1 r)).trans ?_
  refine Finset.sum_congr rfl fun k _ => ?_
  have e : reduces_S2048x1024_S2048.lift (ix1 r) k = ix2 r k :=
    funext fun a => Fin.ext (by match a with | ⟨0, _⟩ => rfl | ⟨1, _⟩ => rfl)
  rw [e]
  have hs := scores_at xs2 (truncf .bf16 x1 bitsLt_bf16_f32) r k
  exact congr (congrArg max hs) (congrArg Neg.neg hs)

/-- The Gram update at `(a, b)`: what the buffer held, plus the block's 1024 products of columns `a` and `b`. -/
theorem pay6_at (x1 : Vec Ideal S1024x64 .f32) (xs1 : Vec Ideal S64x64 .f32) (a b : Fin 64) :
    k0_pay6 (F := Ideal) x1 xs1 (ix2 a b) = xs1 (ix2 a b) + ∑ k : Fin 1024, x1 (ix2 k a) * x1 (ix2 k b) := by
  unfold k0_pay6 k0_pay4
  simp only [shapeCast_self]
  exact congrArg (xs1 (ix2 a b) + ·) (gramBlock_at (truncf .bf16 x1 bitsLt_bf16_f32) (truncf .bf16 x1 bitsLt_bf16_f32) a b)

/-- The output at `(r, o)`: the user entry plus the message — the aggregate of row `r` (the tile through the Gram
    matrix, divided by the clamped L1 mass of the row and by the row count) through the weights, plus the bias. -/
theorem pay7_at (l1 : Vec Ideal S2048x1 .f32) (g : Vec Ideal S64x64 .f32) (tile : Vec Ideal S2048x64 .bf16)
    (w : Vec Ideal S64x64 .f32) (bias : Vec Ideal S1x64 .f32) (user : Vec Ideal S2048x64 .f32) (r : Fin 2048) (o : Fin 64) :
    k0_pay7 (F := Ideal) l1 g tile w bias user (ix2 r o)
      = user (ix2 r o) + ((∑ e : Fin 64,
            Ideal.div (Ideal.div (∑ d : Fin 64, tile (ix2 r d) * g (ix2 d e)) (max (l1 (ix2 r (0 : Fin 1))) clampWord)) countWord
              * w (ix2 o e)) + bias (ix2 (0 : Fin 1) o)) := by
  unfold k0_pay7
  simp only [shapeCast_self]
  refine congrArg (user (ix2 r o) + ·) ?_
  refine congr (congrArg HAdd.hAdd ?_) ?_
  · refine (throughWeight_at _ _ r o).trans (Finset.sum_congr rfl fun e _ => ?_)
    refine congrArg (· * w (ix2 o e)) ?_
    refine congrArg (Ideal.div · countWord) ?_
    refine congr (congrArg Ideal.div (throughGram_at tile (truncf .bf16 g bitsLt_bf16_f32) r e)) ?_
    exact broadcastTo_apply _ broadcasts_S2048x1_S2048x64 (ix2 r e) (ix2 r (0 : Fin 1))
      (fun a => by match a with | ⟨0, _⟩ => rfl | ⟨1, _⟩ => rfl)
  · exact broadcastTo_apply bias broadcasts_S1x64_S2048x64 (ix2 r o) (ix2 (0 : Fin 1) o)
      (fun a => by match a with | ⟨0, _⟩ => rfl | ⟨1, _⟩ => rfl)

end Cert.KernelIdeal.PayloadAt

end
-- ==== Proof.GramLaw.lean ====
/-
  The mathematics of the certificate, with no program in sight.

  Rows `n` of a matrix `U` (N × D) attend to the rows `k` of a matrix `S` (M × D): the score is
  `att n k = ∑ d, U n d * S k d`, a row's L1 mass is `rowL1 n = ∑ k, |att n k|`, clamped below by a constant `ε`, and the
  aggregate of row `n` is the score-weighted sum of the rows of `S`, each score first divided by the clamped mass:

      aggScores n e = ∑ k, (att n k / max (rowL1 n) ε) * S k e.

  The other way to the same number never forms the N × M score matrix for the aggregate: it accumulates the D × D Gram
  matrix `gram a b = ∑ k, S k a * S k b` of `S` and multiplies the row of `U` into it, dividing once at the end:

      aggGram n e = (∑ d, U n d * gram d e) / max (rowL1 n) ε.

  Over the reals the two agree: exchange the two finite sums, and move the one division across the sum over `k`
  (distributivity). On the extended reals distributivity fails at the infinities, and a division by zero is not a
  multiplication by an inverse, so the law is stated for matrices of REAL entries and a constant `ε` that is a positive
  real: then the clamped mass is a positive real, division by it is multiplication by its reciprocal, and every sum
  and product in sight is the coercion of the same real sum or product.

  `outGram` and `outScores` finish both aggregates the same way — divide by a constant `c`, multiply by a matrix `W`
  (E × D, contracted along its second axis), add a bias row `B` and then the row of `U` itself — and `out_eq` is the law for them.
-/
import Idealize.ShloMosaic.PureOps.Ideal

noncomputable section

namespace Cert.GramLaw

open Idealize.ShloMosaic Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The larger of two coerced reals is the coercion of the larger. -/
theorem coe_max (a b : ℝ) : max (a : EReal) (b : EReal) = ((max a b : ℝ) : EReal) :=
  (EReal.coe_strictMono.monotone.map_max).symm

/-- `max x (-x)` of a coerced real is the coercion of its absolute value. -/
theorem abs_coe (r : ℝ) : max (r : EReal) (-(r : EReal)) = ((|r| : ℝ) : EReal) := by
  rw [← EReal.coe_neg, coe_max, abs_eq_max_neg]

variable {N M D E : ℕ}

/-- The score of row `n` of `U` against row `k` of `S`. -/
def att (U : Fin N → Fin D → EReal) (S : Fin M → Fin D → EReal) (n : Fin N) (k : Fin M) : EReal :=
  ∑ d : Fin D, U n d * S k d

/-- The L1 mass of row `n`'s scores. -/
def rowL1 (U : Fin N → Fin D → EReal) (S : Fin M → Fin D → EReal) (n : Fin N) : EReal :=
  ∑ k : Fin M, max (att U S n k) (-(att U S n k))

/-- The Gram matrix of `S`. -/
def gram (S : Fin M → Fin D → EReal) (a b : Fin D) : EReal := ∑ k : Fin M, S k a * S k b

/-- The aggregate through the Gram matrix: one division, after the contraction. -/
def aggGram (ε : EReal) (U : Fin N → Fin D → EReal) (S : Fin M → Fin D → EReal) (n : Fin N) (e : Fin D) : EReal :=
  Ideal.div (∑ d : Fin D, U n d * gram S d e) (max (rowL1 U S n) ε)

/-- The aggregate through the normalized scores: every score divided, then the contraction over `k`. -/
def aggScores (ε : EReal) (U : Fin N → Fin D → EReal) (S : Fin M → Fin D → EReal) (n : Fin N) (e : Fin D) : EReal :=
  ∑ k : Fin M, Ideal.div (att U S n k) (max (rowL1 U S n) ε) * S k e

/-- The common tail: an aggregate divided by `c`, through `W`, plus the bias, plus the row of `U`. -/
def finish (c : EReal) (agg : Fin N → Fin D → EReal) (U : Fin N → Fin D → EReal) (W : Fin D → Fin D → EReal)
    (B : Fin D → EReal) (n : Fin N) (o : Fin D) : EReal :=
  U n o + ((∑ e : Fin D, Ideal.div (agg n e) c * W o e) + B o)

/-- The result by the Gram road. -/
def outGram (ε c : EReal) (U : Fin N → Fin D → EReal) (S : Fin M → Fin D → EReal) (W : Fin D → Fin D → EReal)
    (B : Fin D → EReal) : Fin N → Fin D → EReal := finish c (aggGram ε U S) U W B

/-- The result by the normalized-score road. -/
def outScores (ε c : EReal) (U : Fin N → Fin D → EReal) (S : Fin M → Fin D → EReal) (W : Fin D → Fin D → EReal)
    (B : Fin D → EReal) : Fin N → Fin D → EReal := finish c (aggScores ε U S) U W B

/-- With real entries a score is a coerced real. -/
theorem att_coe (u : Fin N → Fin D → ℝ) (s : Fin M → Fin D → ℝ) (n : Fin N) (k : Fin M) :
    att (fun n d => (u n d : EReal)) (fun k d => (s k d : EReal)) n k = ((∑ d : Fin D, u n d * s k d : ℝ) : EReal) := by
  unfold att
  rw [coe_sum]
  exact Finset.sum_congr rfl fun d _ => (EReal.coe_mul _ _).symm

/-- With real entries a row's L1 mass is a coerced real. -/
theorem rowL1_coe (u : Fin N → Fin D → ℝ) (s : Fin M → Fin D → ℝ) (n : Fin N) :
    rowL1 (fun n d => (u n d : EReal)) (fun k d => (s k d : EReal)) n
      = ((∑ k : Fin M, |∑ d : Fin D, u n d * s k d| : ℝ) : EReal) := by
  unfold rowL1
  rw [coe_sum]
  exact Finset.sum_congr rfl fun k _ => by rw [att_coe, abs_coe]

/-- THE LAW. For real matrices and a positive real clamp the two aggregates are one number: the sums over `d` and `k`
    exchange, and the division by the (positive, real) clamped mass distributes over the sum over `k`. -/
theorem agg_eq (ε : EReal) (hε : ∃ e : ℝ, 0 < e ∧ ε = (e : EReal)) (u : Fin N → Fin D → ℝ) (s : Fin M → Fin D → ℝ)
    (n : Fin N) (e : Fin D) :
    aggGram ε (fun n d => (u n d : EReal)) (fun k d => (s k d : EReal)) n e
      = aggScores ε (fun n d => (u n d : EReal)) (fun k d => (s k d : EReal)) n e := by
  obtain ⟨ε₀, hpos, rfl⟩ := hε
  unfold aggGram aggScores
  rw [rowL1_coe, coe_max]
  have hL : max (∑ k : Fin M, |∑ d : Fin D, u n d * s k d|) ε₀ ≠ 0 := (lt_of_lt_of_le hpos (le_max_right _ _)).ne'
  generalize max (∑ k : Fin M, |∑ d : Fin D, u n d * s k d|) ε₀ = L at hL
  rw [Ideal.div_coe hL]
  have hg : ∀ d : Fin D, gram (fun k d => (s k d : EReal)) d e = ((∑ k : Fin M, s k d * s k e : ℝ) : EReal) := fun d => by
    unfold gram
    rw [coe_sum]
    exact Finset.sum_congr rfl fun k _ => (EReal.coe_mul _ _).symm
  have hl : (∑ d : Fin D, (u n d : EReal) * gram (fun k d => (s k d : EReal)) d e)
      = ((∑ d : Fin D, u n d * ∑ k : Fin M, s k d * s k e : ℝ) : EReal) := by
    rw [coe_sum]
    exact Finset.sum_congr rfl fun d _ => by rw [hg, EReal.coe_mul]
  have hr : ∀ k : Fin M, Ideal.div (att (fun n d => (u n d : EReal)) (fun k d => (s k d : EReal)) n k) (L : EReal) * (s k e : EReal)
      = (((∑ d : Fin D, u n d * s k d) * (1 / L) * s k e : ℝ) : EReal) := fun k => by
    rw [att_coe, Ideal.div_coe hL, EReal.coe_mul, EReal.coe_mul]
  rw [hl, Finset.sum_congr rfl fun k _ => hr k, ← coe_sum, ← EReal.coe_mul]
  refine congrArg _ ?_
  rw [Finset.sum_mul]
  simp_rw [Finset.mul_sum, Finset.sum_mul]
  rw [Finset.sum_comm]
  refine Finset.sum_congr rfl fun k _ => Finset.sum_congr rfl fun d _ => ?_
  ring

/-- So the two results agree, whatever `c`, `W` and `B` are. -/
theorem out_eq (ε c : EReal) (hε : ∃ e : ℝ, 0 < e ∧ ε = (e : EReal)) (u : Fin N → Fin D → ℝ) (s : Fin M → Fin D → ℝ)
    (W : Fin D → Fin D → EReal) (B : Fin D → EReal) :
    outGram ε c (fun n d => (u n d : EReal)) (fun k d => (s k d : EReal)) W B
      = outScores ε c (fun n d => (u n d : EReal)) (fun k d => (s k d : EReal)) W B := by
  funext n o
  unfold outGram outScores finish
  simp only [agg_eq ε hε u s]

end Cert.GramLaw

end
-- ==== Proof.LibTiledSum.lean ====
/-
  A sum taken tile by tile. A running total that starts at zero and, at step `n`, adds the `n`-th tile of `B`
  consecutive terms of a sequence `f`, holds after `T` steps the sum of the first `T * B` terms, in any commutative
  additive monoid: only associativity of `+` is used, so the statement holds on the extended reals with their
  infinities as it does on the reals. This is the law that joins a contraction accumulated block by block
  (a matrix product whose inner dimension is cut into `T` tiles of `B`) to the same contraction taken as one sum.
-/
import Mathlib.Algebra.BigOperators.Fin

open Finset

namespace Cert.TiledSum

variable {M : Type*} [AddCommMonoid M]

/-- After `n` steps the running total is the sum of the first `n * B` terms. -/
theorem acc_eq_sum_range (B : ℕ) (f : ℕ → M) (acc : ℕ → M) (h0 : acc 0 = 0)
    (hs : ∀ n, acc (n + 1) = acc n + ∑ j : Fin B, f (n * B + j.val)) :
    ∀ n, acc n = ∑ k ∈ range (n * B), f k
  | 0 => by rw [h0, Nat.zero_mul, range_zero, sum_empty]
  | n + 1 => by
    rw [hs n, acc_eq_sum_range B f acc h0 hs n, Nat.succ_mul, sum_range_add,
      Finset.sum_range (fun j => f (n * B + j))]

/-- The same total as a sum over the finite index type of all `T * B` terms. -/
theorem acc_eq_sum_fin (B : ℕ) (f : ℕ → M) (acc : ℕ → M) (h0 : acc 0 = 0)
    (hs : ∀ n, acc (n + 1) = acc n + ∑ j : Fin B, f (n * B + j.val)) (T : ℕ) :
    acc T = ∑ k : Fin (T * B), f k.val := by
  rw [acc_eq_sum_range B f acc h0 hs T, Finset.sum_range]

end Cert.TiledSum
-- ==== Proof.Accumulate.lean ====
/-
  Sixty-four blocks make the whole sum.

  Fix the user matrix `U` (4096 × 64) and the sequence matrix `S` (65536 × 64). A tile's L1 buffer at row `r` starts
  at zero and, at block `J`, gains the absolute scores of that row against sequence rows `1024·J … 1024·J + 1023`; the
  Gram buffer at `(a, b)` gains the products of columns `a` and `b` over the same rows. Written with a summand that is
  a total function of a natural number (zero past the matrix's last row), both are the same recurrence
      runSum f 0 = 0,   runSum f (J + 1) = runSum f J + ∑ k < 1024, f (1024·J + k),
  and after all 64 blocks the running sum is the sum of `f` over all 65536 rows — only associativity and commutativity
  of addition are used, so this holds on the extended reals as it stands. Hence after the last block the L1 buffer
  holds each row's full L1 mass and the Gram buffer the full Gram matrix of `S`.
-/
import proofs.«131061_j90718299226372_2_alg».proof.Proof.PayloadAt
import proofs.«131061_j90718299226372_2_alg».proof.Proof.GramLaw
import proofs.«131061_j90718299226372_2_alg».proof.Proof.LibTiledSum

noncomputable section

open Idealize.ShloMosaic Idealize.ShloMosaic.ValueIdx

namespace Cert.KernelIdeal.Accumulate

open Cert.KernelIdeal Cert.KernelIdeal.Gen Cert.KernelIdeal.PayloadAt Cert.GramLaw

variable (U : Fin 4096 → Fin 64 → EReal) (S : Fin 65536 → Fin 64 → EReal)

/-- The absolute score of user row `n` against sequence row `k`; zero past the last row. -/
def absScore (n : Fin 4096) (k : ℕ) : EReal :=
  if h : k < 65536 then max (att U S n ⟨k, h⟩) (-(att U S n ⟨k, h⟩)) else 0

/-- The product of entries `a` and `b` of sequence row `k`; zero past the last row. -/
def colProd (a b : Fin 64) (k : ℕ) : EReal := if h : k < 65536 then S ⟨k, h⟩ a * S ⟨k, h⟩ b else 0

/-- A sum taken 1024 terms at a time. -/
def runSum (f : ℕ → EReal) : ℕ → EReal
  | 0 => 0
  | J + 1 => runSum f J + ∑ k : Fin 1024, f (J * 1024 + k.val)

/-- After 64 blocks it is the sum over all 65536 terms. -/
theorem runSum_all (f : ℕ → EReal) : runSum f 64 = ∑ k : Fin 65536, f k.val :=
  Cert.TiledSum.acc_eq_sum_fin 1024 f (runSum f) rfl (fun _ => rfl) 64

/-- The L1 buffer after the last block holds the row's L1 mass. -/
theorem l1_total (n : Fin 4096) : runSum (absScore U S n) 64 = rowL1 U S n := by
  rw [runSum_all]
  unfold rowL1
  exact Finset.sum_congr rfl fun k _ => by unfold absScore; rw [dif_pos k.isLt]

/-- The Gram buffer after the last block holds the Gram matrix of the sequence matrix. -/
theorem gram_total (a b : Fin 64) : runSum (colProd S a b) 64 = gram S a b := by
  rw [runSum_all]
  unfold gram
  exact Finset.sum_congr rfl fun k _ => by unfold colProd; rw [dif_pos k.isLt]

/-- One block's update of the L1 buffer at row `r`: if the kept tile's row `r` is user row `n`, the block is sequence
    rows `1024·J …`, and the buffer held the running sum after `J` blocks, it now holds the running sum after `J + 1`. -/
theorem l1_step (tile : Vec Ideal S2048x64 .bf16) (blk : Vec Ideal S1024x64 .f32) (old : Vec Ideal S2048x1 .f32)
    (n : Fin 4096) (J : ℕ) (hJ : J < 64) (r : Fin 2048) (z : Fin 1)
    (htile : ∀ d : Fin 64, tile (ix2 r d) = U n d)
    (hblk : ∀ (k : Fin 1024) (d : Fin 64) (hb : J * 1024 + k.val < 65536), blk (ix2 k d) = S ⟨J * 1024 + k.val, hb⟩ d)
    (hold : old (ix2 r z) = runSum (absScore U S n) J) :
    k0_pay5 (F := Ideal) blk tile old (ix2 r z) = runSum (absScore U S n) (J + 1) := by
  rw [pay5_at, hold]
  show _ = runSum (absScore U S n) J + ∑ k : Fin 1024, absScore U S n (J * 1024 + k.val)
  refine congrArg (runSum (absScore U S n) J + ·) (Finset.sum_congr rfl fun k _ => ?_)
  have hb : J * 1024 + k.val < 65536 := by have := k.isLt; omega
  have hs : (∑ d : Fin 64, tile (ix2 r d) * blk (ix2 k d)) = att U S n ⟨J * 1024 + k.val, hb⟩ := by
    unfold att
    exact Finset.sum_congr rfl fun d _ => by rw [htile d, hblk k d hb]
  unfold absScore
  rw [dif_pos hb, hs]

/-- One block's update of the Gram buffer at `(a, b)`. -/
theorem gram_step (blk : Vec Ideal S1024x64 .f32) (old : Vec Ideal S64x64 .f32) (J : ℕ) (hJ : J < 64) (a b : Fin 64)
    (hblk : ∀ (k : Fin 1024) (d : Fin 64) (hb : J * 1024 + k.val < 65536), blk (ix2 k d) = S ⟨J * 1024 + k.val, hb⟩ d)
    (hold : old (ix2 a b) = runSum (colProd S a b) J) :
    k0_pay6 (F := Ideal) blk old (ix2 a b) = runSum (colProd S a b) (J + 1) := by
  rw [pay6_at, hold]
  show _ = runSum (colProd S a b) J + ∑ k : Fin 1024, colProd S a b (J * 1024 + k.val)
  refine congrArg (runSum (colProd S a b) J + ·) (Finset.sum_congr rfl fun k _ => ?_)
  have hb : J * 1024 + k.val < 65536 := by have := k.isLt; omega
  unfold colProd
  rw [dif_pos hb, hblk k a hb, hblk k b hb]

/-- The output entry `(r, o)` the last point stores, once the two buffers hold their totals: the Gram-road result
    at user row `n`. -/
theorem out_entry (l1 : Vec Ideal S2048x1 .f32) (g : Vec Ideal S64x64 .f32) (tile : Vec Ideal S2048x64 .bf16)
    (w : Vec Ideal S64x64 .f32) (bias : Vec Ideal S1x64 .f32) (user : Vec Ideal S2048x64 .f32)
    (W : Fin 64 → Fin 64 → EReal) (B : Fin 64 → EReal) (n : Fin 4096) (r : Fin 2048) (o : Fin 64)
    (hl1 : l1 (ix2 r (0 : Fin 1)) = rowL1 U S n) (hg : ∀ d e : Fin 64, g (ix2 d e) = gram S d e)
    (htile : ∀ d : Fin 64, tile (ix2 r d) = U n d) (huser : user (ix2 r o) = U n o)
    (hw : ∀ e : Fin 64, w (ix2 o e) = W o e) (hbias : bias (ix2 (0 : Fin 1) o) = B o) :
    k0_pay7 (F := Ideal) l1 g tile w bias user (ix2 r o) = outGram clampWord countWord U S W B n o := by
  rw [pay7_at, hl1, huser, hbias]
  unfold outGram finish aggGram
  refine congrArg (U n o + ·) (congrArg (· + B o) (Finset.sum_congr rfl fun e _ => ?_))
  rw [hw e]
  refine congrArg (fun x => Ideal.div (Ideal.div x (max (rowL1 U S n) clampWord)) countWord * W o e) ?_
  exact Finset.sum_congr rfl fun d _ => by rw [htile d, hg d e]

end Cert.KernelIdeal.Accumulate

end
-- ==== Proof.Carried.lean ====
/-
  What the three carried buffers hold after every point of a tile, and what the last point stores.

  The generated frame defines the buffers' contents after point `n` by recursion on `n`, one clause per control case.
  With each case's stores read back as values this recursion is: at the first point of a tile the buffers are the
  updates of zero (and the user tile is stored); at every later point each running sum is the update of what the
  point before left, and the user tile is unchanged. By induction on the position `j` inside tile `q`, after point
  `64·q + j` the kept tile is rows `2048·q …` of the user matrix, the L1 buffer holds the running sums after `j + 1`
  blocks, and the Gram buffer likewise. At `j = 63` these are the full L1 masses and the full Gram matrix, and the
  output block stored there is the Gram-road result for the tile's rows.
-/
import proofs.«131061_j90718299226372_2_alg».proof.Proof.Pieces
import proofs.«131061_j90718299226372_2_alg».proof.Proof.Blocks
import proofs.«131061_j90718299226372_2_alg».proof.Proof.Accumulate

noncomputable section

open Idealize.ShloMosaic Idealize.ShloMosaic.TcCoe Idealize.SL.Sem Idealize.ShloMosaic.ValueIdx

namespace Cert.KernelIdeal.Carried

open Cert.KernelIdeal Cert.KernelIdeal.Gen Cert.KernelIdeal.PayloadAt Cert.KernelIdeal.Accumulate Cert.GramLaw

/-! ## The recursion, with each case's stores read back -/

section Steps

variable {F : FTy → Type} [FloatOps F]
variable (m : (ℓ : Loc nD τ sig) → Buf (Elt F) ℓ)

/-- The four input blocks at a point, at their literal shapes. -/
abbrev userBlk (c : Dev nD) (t : Fin cfg0.N) : Vec F S2048x64 .f32 := iblk m c 0 t
abbrev seqBlk (c : Dev nD) (t : Fin cfg0.N) : Vec F S1024x64 .f32 := iblk m c 1 t
abbrev weightBlk (c : Dev nD) (t : Fin cfg0.N) : Vec F S64x64 .f32 := iblk m c 2 t
abbrev biasBlk (c : Dev nD) (t : Fin cfg0.N) : Vec F S1x64 .f32 := iblk m c 3 t

/-- After the first point of a tile: both running sums are the update of zero, and the user tile is stored. -/
theorem first (c : Dev nD) (t : Fin cfg0.N) (h0 : t.val % 64 = 0) :
    (outsAt0 m c t.val t.isLt).2.1 = k0_pay5 (seqBlk m c t) (k0_pay3 (userBlk m c t)) k0_pay1
    ∧ (outsAt0 m c t.val t.isLt).2.2.1 = k0_pay6 (seqBlk m c t) k0_pay2
    ∧ (outsAt0 m c t.val t.isLt).2.2.2 = k0_pay3 (userBlk m c t) := by
  have h1 : ¬t.val % 64 = 63 := by omega
  have e := outsAt0_A m c t h0 h1
  refine ⟨(congrArg (fun p => p.2.1) e).trans ?_, (congrArg (fun p => p.2.2.1) e).trans ?_,
    (congrArg (fun p => p.2.2.2) e).trans ?_⟩
  · dsimp only; exact Pieces.l1_first ..
  · dsimp only; exact Pieces.gram_first ..
  · dsimp only; exact Pieces.tile_first ..

/-- After any later point: each running sum is the update of what the point before left; the user tile is as it was. -/
theorem later (c : Dev nD) (t : Fin cfg0.N) (h0 : ¬t.val % 64 = 0) :
    (outsAt0 m c t.val t.isLt).2.1 = k0_pay5 (seqBlk m c t) (outsAt0 m c (t.val - 1) (Nat.lt_of_le_of_lt (Nat.sub_le _ _) t.isLt)).2.2.2 (outsAt0 m c (t.val - 1) (Nat.lt_of_le_of_lt (Nat.sub_le _ _) t.isLt)).2.1
    ∧ (outsAt0 m c t.val t.isLt).2.2.1 = k0_pay6 (seqBlk m c t) (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  by_cases h1 : t.val % 64 = 63
  · have e := outsAt0_C m c t h0 h1
    refine ⟨(congrArg (fun p => p.2.1) e).trans ?_, (congrArg (fun p => p.2.2.1) e).trans ?_,
      (congrArg (fun p => p.2.2.2) e).trans ?_⟩
    · dsimp only; exact Pieces.l1_last ..
    · dsimp only; exact Pieces.gram_last ..
    · dsimp only; rfl
  · have e := outsAt0_B m c t h0 h1
    refine ⟨(congrArg (fun p => p.2.1) e).trans ?_, (congrArg (fun p => p.2.2.1) e).trans ?_,
      (congrArg (fun p => p.2.2.2) e).trans ?_⟩
    · dsimp only; exact Pieces.l1_middle ..
    · dsimp only; exact Pieces.gram_middle ..
    · dsimp only; rfl

/-- What the last point of a tile leaves in the output's buffer: the epilogue of the sums as that point updates them. -/
theorem stored (c : Dev nD) (t : Fin cfg0.N) (h0 : ¬t.val % 64 = 0) (h1 : t.val % 64 = 63) :
    (outsAt0 m c t.val t.isLt).1
      = k0_pay7 (k0_pay5 (seqBlk m c t) (outsAt0 m c (t.val - 1) (Nat.lt_of_le_of_lt (Nat.sub_le _ _) t.isLt)).2.2.2 (outsAt0 m c (t.val - 1) (Nat.lt_of_le_of_lt (Nat.sub_le _ _) t.isLt)).2.1) (k0_pay6 (seqBlk m c t) (outsAt0 m c (t.val - 1) (Nat.lt_of_le_of_lt (Nat.sub_le _ _) t.isLt)).2.2.1)
          (outsAt0 m c (t.val - 1) (Nat.lt_of_le_of_lt (Nat.sub_le _ _) t.isLt)).2.2.2 (weightBlk m c t) (biasBlk m c t) (userBlk m c t) := by
  refine (congrArg (fun p => p.1) (outsAt0_C m c t h0 h1)).trans ?_
  dsimp only
  exact Pieces.out_last ..

end Steps

/-! ## The arrays as plain matrices, and the induction -/

variable (m : (ℓ : Loc nD τ sig) → Buf (Elt Ideal) ℓ) (c : Dev nD)

/-- The user matrix, the sequence matrix, the weight matrix and the bias row as the region finds them. -/
def users : Fin 4096 → Fin 64 → EReal := fun n d => V m c main_arg0 (ix2 n d)
def seqs : Fin 65536 → Fin 64 → EReal := fun k d => V m c main_v0 (ix2 k d)
def weights : Fin 64 → Fin 64 → EReal := fun a b => V m c main_arg2 (ix2 a b)
def biasRow : Fin 64 → EReal := fun o => V m c main_v1 (ix2 (0 : Fin 1) o)

/-- Row `r` of tile `q` is user row `2048·q + r`. -/
def row (q : Fin 2) (r : Fin 2048) : Fin 4096 := ⟨2048 * q.val + r.val, by have := q.isLt; have := r.isLt; omega⟩

/-- The user block at position `j` of tile `q` is the tile's rows of the user matrix. -/
theorem userBlock_row (q : Fin 2) (j : ℕ) (hj : j < 64) (t : Fin cfg0.N) (ht : t.val = 64 * q.val + j) (r : Fin 2048) (d : Fin 64) :
    userBlk m c t (ix2 r d) = users m c (row q r) d := by
  have hb : 2048 * (t.val / 64) + r.val < 4096 := by have := q.isLt; have := r.isLt; omega
  refine (Blocks.userBlock_at m c t r d hb).trans ?_
  exact congrArg (fun n => V m c main_arg0 (ix2 n d)) (Fin.ext (by show 2048 * (t.val / 64) + r.val = 2048 * q.val + r.val; omega))

/-- The sequence block at position `j` is rows `1024·j …` of the sequence matrix. -/
theorem seqBlock_row (q : Fin 2) (j : ℕ) (hj : j < 64) (t : Fin cfg0.N) (ht : t.val = 64 * q.val + j) (k : Fin 1024) (d : Fin 64)
    (hb : j * 1024 + k.val < 65536) :
    seqBlk m c t (ix2 k d) = seqs m c ⟨j * 1024 + k.val, hb⟩ d := by
  have hb' : 1024 * (t.val % 64) + k.val < 65536 := by have := k.isLt; omega
  refine (Blocks.seqBlock_at m c t k d hb').trans ?_
  exact congrArg (fun n => V m c main_v0 (ix2 n d)) (Fin.ext (by show 1024 * (t.val % 64) + k.val = j * 1024 + k.val; omega))

/-- THE INVARIANT of tile `q`: after its point at position `j` the kept tile is the tile's user rows and the two buffers
    hold the running sums after `j + 1` blocks. -/
theorem carried (q : Fin 2) : ∀ (j : ℕ) (hj : j < 64) (hn : 64 * q.val + j < cfg0.N),
    (∀ (r : Fin 2048) (d : Fin 64), (outsAt0 m c (64 * q.val + j) hn).2.2.2 (ix2 r d) = users m c (row q r) d)
    ∧ (∀ (r : Fin 2048) (z : Fin 1), (outsAt0 m c (64 * q.val + j) hn).2.1 (ix2 r z)
        = runSum (absScore (users m c) (seqs m c) (row q r)) (j + 1))
    ∧ (∀ a b : Fin 64, (outsAt0 m c (64 * q.val + j) hn).2.2.1 (ix2 a b) = runSum (colProd (seqs m c) a b) (j + 1)) := by
  intro j
  induction j with
  | zero =>
    intro hj hn
    have h0 : (⟨64 * q.val + 0, hn⟩ : Fin cfg0.N).val % 64 = 0 := by show (64 * q.val + 0) % 64 = 0; omega
    obtain ⟨e1, e2, e3⟩ := first m c ⟨64 * q.val + 0, hn⟩ h0
    have htile : ∀ (r : Fin 2048) (d : Fin 64),
        k0_pay3 (F := Ideal) (userBlk m c ⟨64 * q.val + 0, hn⟩) (ix2 r d) = users m c (row q r) d := fun r d =>
      (pay3_at (userBlk m c ⟨64 * q.val + 0, hn⟩) (ix2 r d)).trans (userBlock_row m c q 0 hj ⟨64 * q.val + 0, hn⟩ rfl r d)
    refine ⟨fun r d => (congrFun e3 (ix2 r d)).trans (htile r d), fun r z => (congrFun e1 (ix2 r z)).trans ?_,
      fun a b => (congrFun e2 (ix2 a b)).trans ?_⟩
    · exact l1_step (users m c) (seqs m c) (k0_pay3 (userBlk m c ⟨64 * q.val + 0, hn⟩)) (seqBlk m c ⟨64 * q.val + 0, hn⟩) (k0_pay1 (F := Ideal))
        (row q r) 0 hj r z (fun d => htile r d) (fun k d hb => seqBlock_row m c q 0 hj ⟨64 * q.val + 0, hn⟩ rfl k d hb)
        (pay1_at (ix2 r z))
    · exact gram_step (seqs m c) (seqBlk m c ⟨64 * q.val + 0, hn⟩) (k0_pay2 (F := Ideal)) 0 hj a b
        (fun k d hb => seqBlock_row m c q 0 hj ⟨64 * q.val + 0, hn⟩ rfl k d hb) (pay2_at (ix2 a b))
  | succ j ih =>
    intro hj hn
    have hn' : 64 * q.val + j < cfg0.N := by omega
    obtain ⟨it, il, ig⟩ := ih (by omega) hn'
    have h0 : ¬(⟨64 * q.val + (j + 1), hn⟩ : Fin cfg0.N).val % 64 = 0 := by show ¬(64 * q.val + (j + 1)) % 64 = 0; omega
    obtain ⟨e1, e2, e3⟩ := later m c ⟨64 * q.val + (j + 1), hn⟩ h0
    refine ⟨fun r d => (congrFun e3 (ix2 r d)).trans (it r d), fun r z => (congrFun e1 (ix2 r z)).trans ?_,
      fun a b => (congrFun e2 (ix2 a b)).trans ?_⟩
    · exact l1_step (users m c) (seqs m c) (outsAt0 m c (64 * q.val + j) hn').2.2.2 (seqBlk m c ⟨64 * q.val + (j + 1), hn⟩)
        (outsAt0 m c (64 * q.val + j) hn').2.1 (row q r) (j + 1) hj r z (fun d => it r d)
        (fun k d hb => seqBlock_row m c q (j + 1) hj ⟨64 * q.val + (j + 1), hn⟩ rfl k d hb) (il r z)
    · exact gram_step (seqs m c) (seqBlk m c ⟨64 * q.val + (j + 1), hn⟩) (outsAt0 m c (64 * q.val + j) hn').2.2.1 (j + 1) hj a b
        (fun k d hb => seqBlock_row m c q (j + 1) hj ⟨64 * q.val + (j + 1), hn⟩ rfl k d hb) (ig a b)

end Cert.KernelIdeal.Carried

end
-- ==== Proof.Result.lean ====
/-
  The array the kernel's run leaves.

  Only the last point of each tile (positions 63 and 127 of the 128 points) writes its output block back; the block
  of tile `q` is rows `2048·q … 2048·q + 2047` of the [4096, 64] result, so the two written blocks cover the result
  array. By the invariant of the carried buffers, what the last point of tile `q` stores at `(r, o)` is the
  Gram-road result at user row `2048·q + r` and column `o`. Hence the whole result array is the Gram-road result
  of the four arrays as the region finds them, and the run ends with it there and the arguments unchanged.
-/
import proofs.«131061_j90718299226372_2_alg».proof.Proof.Carried
import proofs.«131061_j90718299226372_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.PayloadAt Cert.KernelIdeal.Accumulate Cert.KernelIdeal.Carried Cert.GramLaw

variable (m : (ℓ : Loc nD τ sig) → Buf (Elt Ideal) ℓ) (ρ : Dev nD → PrngReg)

/-- The result array by the Gram road, of the arrays as the region finds them. -/
def result (c : Dev nD) : S4096x64.Idx → Elt Ideal .f32 := fun i =>
  outGram clampWord countWord (users m c) (seqs m c) (weights m c) (biasRow m c) ⟨(i 0).val, idx2_lt0 i⟩ ⟨(i 1).val, idx2_lt1 i⟩

/-- What the last point of a tile leaves in the output's buffer, entry by entry: the Gram-road result at the tile's
    rows. -/
theorem at_last (c : Dev nD) (t : Fin cfg0.N) (h1 : t.val % 64 = 63) (hq : t.val / 64 < 2) (y : S2048x64.Idx) :
    (outsAt0 m c t.val t.isLt).1 y
      = outGram clampWord countWord (users m c) (seqs m c) (weights m c) (biasRow m c)
          (row ⟨t.val / 64, hq⟩ ⟨(y 0).val, idx2_lt0 y⟩) ⟨(y 1).val, idx2_lt1 y⟩ := by
  obtain ⟨r, o, rfl⟩ : ∃ (r : Fin 2048) (o : Fin 64), y = ix2 r o := ⟨y 0, y 1, eq_ix2 y⟩
  have h0 : ¬t.val % 64 = 0 := by omega
  have ht : t.val = 64 * (t.val / 64) + 63 := by omega
  have key : ∀ (x : ℕ) (hx : x < cfg0.N), x = 64 * (t.val / 64) + 62 →
      (∀ (r : Fin 2048) (d : Fin 64), (outsAt0 m c x hx).2.2.2 (ix2 r d) = users m c (row ⟨t.val / 64, hq⟩ r) d)
      ∧ (∀ (r : Fin 2048) (z : Fin 1), (outsAt0 m c x hx).2.1 (ix2 r z)
          = runSum (absScore (users m c) (seqs m c) (row ⟨t.val / 64, hq⟩ r)) (62 + 1))
      ∧ (∀ a b : Fin 64, (outsAt0 m c x hx).2.2.1 (ix2 a b) = runSum (colProd (seqs m c) a b) (62 + 1)) := by
    intro x hx ex
    subst ex
    exact carried m c ⟨t.val / 64, hq⟩ 62 (by decide) hx
  obtain ⟨it, il, ig⟩ := key (t.val - 1) (Nat.lt_of_le_of_lt (Nat.sub_le _ _) t.isLt) (by omega)
  refine (congrFun (stored m c t h0 h1) (ix2 r o)).trans ?_
  refine out_entry (users m c) (seqs m c) _ _ _ _ _ _ (weights m c) (biasRow m c) (row ⟨t.val / 64, hq⟩ r) r o ?_ ?_
    (fun d => it r d) (userBlock_row m c ⟨t.val / 64, hq⟩ 63 (by decide) t ht r o)
    (fun e => Blocks.weightBlock_at m c t o e) (Blocks.biasBlock_at m c t 0 o)
  · exact (l1_step (users m c) (seqs m c) _ _ _ (row ⟨t.val / 64, hq⟩ r) 63 (by decide) r 0 (fun d => it r d)
      (fun k d hb => seqBlock_row m c ⟨t.val / 64, hq⟩ 63 (by decide) t ht k d hb) (il r 0)).trans
      (l1_total (users m c) (seqs m c) (row ⟨t.val / 64, hq⟩ r))
  · intro d e
    exact (gram_step (seqs m c) _ _ 63 (by decide) d e
      (fun k d hb => seqBlock_row m c ⟨t.val / 64, hq⟩ 63 (by decide) t ht k d hb) (ig d e)).trans
      (gram_total (seqs m c) d e)

/-- An index of the result array is in point `t`'s block iff each coordinate is in the block's range on its axis. -/
theorem mem_blk (t : Fin cfg0.N) (i : S4096x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v2).slice (win0_4.rect t)).set ↔ _
  rw [View.set_slice_whole, Rect.mem_set_unit]
  exact Iff.rfl

/-- WHAT A WRITING-BACK POINT WRITES is its block of the Gram-road result. -/
theorem flushed_eq (c : Dev nD) (t : Fin cfg0.N) (hf : (cfg0.win 4).flush t = true) :
    (dats m 0 c).flushed 4 t = ((cfg0.win 4).blk t).view.read (Elt Ideal) (result m c) := by
  have h1 : t.val % 64 = 63 := (flush0_4 t).mp hf
  have hN : t.val < 128 := lt_of_lt_of_eq t.isLt (show cfg0.N = 128 from N_0)
  have hq : t.val / 64 < 2 := by omega
  rw [Value.flushed4 m c t]
  funext y
  show (outsAt0 m c t.val t.isLt).1 y = result m c (((cfg0.win 4).blk t).view.emb y)
  refine (at_last m c t h1 hq y).trans ?_
  obtain ⟨-, -, -, -, -, -, -, -, e0, e1⟩ := Blocks.idx_facts t
  unfold result
  refine congr (congrArg (outGram clampWord countWord (users m c) (seqs m c) (weights m c) (biasRow m c)) (Fin.ext ?_)) (Fin.ext ?_)
  · show 2048 * (t.val / 64) + (y 0).val = win0_4.index t (0 : Fin 2) * 2048 + 1 * (y 0).val
    rw [e0]; omega
  · show (y 1).val = win0_4.index t (1 : Fin 2) * 64 + 1 * (y 1).val
    rw [e1]; omega

/-- THE RESULT ARRAY after the run: the two written blocks cover it. -/
theorem final (c : Dev nD) : (dats m 0 c).arrAt 4 cfg0.N = result m c :=
  (dats m 0 c).arrAt_eq_of_cover 4 (result m c) (flushed_eq m c) fun i => by
    have hi0 : (i 0).val < 4096 := idx2_lt0 i
    have hi1 : (i 1).val < 64 := idx2_lt1 i
    have hlt : 64 * ((i 0).val / 2048) + 63 < cfg0.N := by rw [show cfg0.N = 128 from N_0]; omega
    refine ⟨⟨64 * ((i 0).val / 2048) + 63, hlt⟩, (flush0_4 _).mpr (by show (64 * ((i 0).val / 2048) + 63) % 64 = 63; omega), ?_⟩
    rw [mem_blk]
    obtain ⟨-, -, -, -, -, -, -, -, e0, e1⟩ := Blocks.idx_facts ⟨64 * ((i 0).val / 2048) + 63, hlt⟩
    intro a
    match a with
    | ⟨0, _⟩ =>
      show win0_4.index ⟨64 * ((i 0).val / 2048) + 63, hlt⟩ (0 : Fin 2) * 2048 ≤ (i 0).val
        ∧ (i 0).val < win0_4.index ⟨64 * ((i 0).val / 2048) + 63, hlt⟩ (0 : Fin 2) * 2048 + 2048
      rw [e0]
      show (64 * ((i 0).val / 2048) + 63) / 64 * 2048 ≤ (i 0).val ∧ (i 0).val < (64 * ((i 0).val / 2048) + 63) / 64 * 2048 + 2048
      omega
    | ⟨1, _⟩ =>
      show win0_4.index ⟨64 * ((i 0).val / 2048) + 63, hlt⟩ (1 : Fin 2) * 64 ≤ (i 1).val
        ∧ (i 1).val < win0_4.index ⟨64 * ((i 0).val / 2048) + 63, hlt⟩ (1 : Fin 2) * 64 + 64
      rw [e1]
      omega

/-- The run, read: the result array at the Gram-road result, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefValue.lean ====
/-
  The reference, entry by entry.

  The reference forms the 4096 × 65536 score matrix, takes each row's L1 mass, clamps it below, divides every score by
  its row's clamped mass, contracts the normalized scores with the sequence matrix, divides by the row count,
  multiplies by the transposed weights, and adds the bias and then the user entry. Read one operation at a time at
  an entry `(n, o)`, this is the normalized-score road of the law's module, over the user matrix, the re-laid sequence
  matrix, the weights and the bias as plain matrices.
-/
import proofs.«131061_j90718299226372_2_alg».proof.Proof.Gen.ReferenceIdeal.Read
import proofs.«131061_j90718299226372_2_alg».proof.Proof.GramLaw

noncomputable section

open Idealize.ShloMosaic Idealize.ShloMosaic.ValueIdx

namespace Cert.ReferenceIdeal.RefValue

open Cert.ReferenceIdeal Cert.ReferenceIdeal.Gen Cert.ReferenceIdeal.Read Cert.GramLaw

/-- The reference's four arguments as plain matrices (the sequence argument through the program's own re-laying). -/
def usersOf (x0 : (⟨S4096x64, .f32⟩ : BufTy).Contents (Elt Ideal)) : Fin 4096 → Fin 64 → EReal := fun n d => x0 (ix2 n d)
def seqsOf (x1 : (⟨S2048x32x64, .f32⟩ : BufTy).Contents (Elt Ideal)) : Fin 65536 → Fin 64 → EReal := fun k d => val_main_v0 (F := Ideal) x1 (ix2 k d)
def weightsOf (x2 : (⟨S64x64, .f32⟩ : BufTy).Contents (Elt Ideal)) : Fin 64 → Fin 64 → EReal := fun a b => x2 (ix2 a b)
def biasOf (x3 : (⟨S64, .f32⟩ : BufTy).Contents (Elt Ideal)) : Fin 64 → EReal := fun o => x3 (ix1 o)

variable (x0 : (⟨S4096x64, .f32⟩ : BufTy).Contents (Elt Ideal)) (x1 : (⟨S2048x32x64, .f32⟩ : BufTy).Contents (Elt Ideal)) (x2 : (⟨S64x64, .f32⟩ : BufTy).Contents (Elt Ideal)) (x3 : (⟨S64, .f32⟩ : BufTy).Contents (Elt Ideal))

/-- The score matrix. -/
theorem score_at (n : Fin 4096) (k : Fin 65536) :
    val_main_v1 (F := Ideal) x0 x1 (ix2 n k) = att (usersOf x0) (seqsOf x1) n k := by
  rw [val_main_v1_apply]
  unfold att usersOf seqsOf
  refine Finset.sum_congr rfl fun d _ => ?_
  have el : lidx_main_v1 (ix2 n k) d = ix2 n d := funext fun a => Fin.ext (by match a with | ⟨0, _⟩ => rfl | ⟨1, _⟩ => rfl)
  have er : ridx_main_v1 (ix2 n k) d = ix2 k d := funext fun a => Fin.ext (by match a with | ⟨0, _⟩ => rfl | ⟨1, _⟩ => rfl)
  rw [el, er]

/-- A row's L1 mass: the host's sum starts from its zero initial value. -/
theorem mass_at (n : Fin 4096) : val_main_v3 (F := Ideal) x0 x1 (ix1 n) = rowL1 (usersOf x0) (seqsOf x1) n := by
  rw [val_main_v3_apply]
  have hz : val_main_cst (F := Ideal) (Shape.Idx.first h_S_) = 0 := Ideal.ofBits_zero_f32
  rw [hz, zero_add]
  unfold rowL1
  refine Finset.sum_congr rfl fun k _ => ?_
  have ei : idx_main_v3 (ix1 n) k = ix2 n k := funext fun a => Fin.ext (by match a with | ⟨0, _⟩ => rfl | ⟨1, _⟩ => rfl)
  rw [ei]
  show max (val_main_v1 (F := Ideal) x0 x1 (ix2 n k)) (-(val_main_v1 (F := Ideal) x0 x1 (ix2 n k))) = _
  rw [score_at]

/-- The clamped mass, kept as a column. -/
theorem clamped_at (n : Fin 4096) (z : Fin 1) :
    val_main_v6 (F := Ideal) x0 x1 (ix2 n z)
      = max (rowL1 (usersOf x0) (seqsOf x1) n) (Ideal.ofBits .f32 0x2B8CBCCC#32) := by
  show max (val_main_v4 (F := Ideal) x0 x1 (ix2 n z)) (val_main_v5 (F := Ideal) (ix2 n z)) = _
  rw [val_main_v4_apply, val_main_v5_apply]
  have ei : idx_main_v4 (ix2 n z) = ix1 n := funext fun a => Fin.ext (by match a with | ⟨0, _⟩ => rfl)
  rw [ei, mass_at]
  rfl

/-- A normalized score. -/
theorem normalized_at (n : Fin 4096) (k : Fin 65536) :
    val_main_v8 (F := Ideal) x0 x1 (ix2 n k)
      = Ideal.div (att (usersOf x0) (seqsOf x1) n k) (max (rowL1 (usersOf x0) (seqsOf x1) n) (Ideal.ofBits .f32 0x2B8CBCCC#32)) := by
  rw [val_main_v8_apply, score_at, val_main_v7_apply]
  have ei : idx_main_v7 (ix2 n k) = ix2 n (0 : Fin 1) := funext fun a => Fin.ext (by match a with | ⟨0, _⟩ => rfl | ⟨1, _⟩ => rfl)
  rw [ei, clamped_at]
  rfl

/-- The aggregate through the normalized scores. -/
theorem aggregate_at (n : Fin 4096) (e : Fin 64) :
    val_main_v9 (F := Ideal) x0 x1 (ix2 n e) = aggScores (Ideal.ofBits .f32 0x2B8CBCCC#32) (usersOf x0) (seqsOf x1) n e := by
  rw [val_main_v9_apply]
  unfold aggScores
  refine Finset.sum_congr rfl fun k _ => ?_
  have el : lidx_main_v9 (ix2 n e) k = ix2 n k := funext fun a => Fin.ext (by match a with | ⟨0, _⟩ => rfl | ⟨1, _⟩ => rfl)
  have er : ridx_main_v9 (ix2 n e) k = ix2 k e := funext fun a => Fin.ext (by match a with | ⟨0, _⟩ => rfl | ⟨1, _⟩ => rfl)
  rw [el, er, normalized_at]
  rfl

/-- The message before the bias: the aggregate over the row count, through the transposed weights. -/
theorem message_at (n : Fin 4096) (o : Fin 64) :
    val_main_v13 (F := Ideal) x0 x1 x2 (ix2 n o)
      = ∑ e : Fin 64, Ideal.div (aggScores (Ideal.ofBits .f32 0x2B8CBCCC#32) (usersOf x0) (seqsOf x1) n e)
          (Ideal.ofBits .f32 0x47800000#32) * weightsOf x2 o e := by
  rw [val_main_v13_apply]
  refine Finset.sum_congr rfl fun e _ => ?_
  have el : lidx_main_v13 (ix2 n o) e = ix2 n e := funext fun a => Fin.ext (by match a with | ⟨0, _⟩ => rfl | ⟨1, _⟩ => rfl)
  have er : ridx_main_v13 (ix2 n o) e = ix2 e o := funext fun a => Fin.ext (by match a with | ⟨0, _⟩ => rfl | ⟨1, _⟩ => rfl)
  rw [el, er, val_main_v12_apply]
  have et : idx_main_v12 (ix2 e o) = ix2 o e := funext fun a => Fin.ext (by match a with | ⟨0, _⟩ => rfl | ⟨1, _⟩ => rfl)
  rw [et]
  show Ideal.div (val_main_v9 (F := Ideal) x0 x1 (ix2 n e)) (val_main_v10 (F := Ideal) (ix2 n e)) * x2 (ix2 o e) = _
  rw [aggregate_at, val_main_v10_apply]
  rfl

/-- The bias, spread over the rows. -/
theorem bias_at (n : Fin 4096) (o : Fin 64) : val_main_v15 (F := Ideal) x3 (ix2 n o) = biasOf x3 o := by
  rw [val_main_v15_apply, val_main_v14_apply]
  have ei : idx_main_v14 (idx_main_v15 (ix2 n o)) = ix1 o := funext fun a => Fin.ext (by match a with | ⟨0, _⟩ => rfl)
  rw [ei]
  rfl

/-- THE REFERENCE'S RESULT at `(n, o)` is the normalized-score road. -/
theorem result_at (n : Fin 4096) (o : Fin 64) :
    val_main_v17 (F := Ideal) x0 x1 x2 x3 (ix2 n o)
      = outScores (Ideal.ofBits .f32 0x2B8CBCCC#32) (Ideal.ofBits .f32 0x47800000#32) (usersOf x0) (seqsOf x1) (weightsOf x2)
          (biasOf x3) n o := by
  show x0 (ix2 n o) + (val_main_v13 (F := Ideal) x0 x1 x2 (ix2 n o) + val_main_v15 (F := Ideal) x3 (ix2 n o)) = _
  rw [message_at, bias_at]
  rfl

end Cert.ReferenceIdeal.RefValue

end
-- ==== Proof.Consts.lean ====
/-
  The two float words whose values the proof needs.

  The precondition compares against the word of +∞. The clamp on a row's L1 mass is the single-precision word
  nearest to 1e-12: sign 0, exponent field 87, fraction field 834764, that is (2^23 + 834764) · 2^(87 − 127 − 23)
  = 9223372 · 2^(−63), a positive real. Every other word of the two programs occurs identically on both sides
  and is never evaluated.
-/
import Idealize.ShloMosaic.PureOps.Ideal

noncomputable section

namespace Cert.Consts

open Idealize.ShloMosaic

/-- The word the precondition compares against denotes +∞. -/
theorem ofBits_inf : Ideal.ofBits .f32 0x7F800000#32 = ⊤ := by simp [Ideal.ofBits, Ideal.ieee]

/-- The clamp word denotes a positive real. -/
theorem clamp_pos : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

end Cert.Consts

end
-- ==== Proof.Finite.lean ====
/-
  What the precondition gives.

  The precondition says of each of the four arguments that every entry's absolute value is below +∞. On the extended
  reals `|x| = max x (-x)`, and `max x (-x) < ⊤` excludes both `x = ⊤` and `x = ⊥`: every entry is a real number.
  The law that joins the kernel to the reference needs this of the user matrix and of the sequence matrix (it moves
  a division across a sum, and exchanges sums of products); it needs nothing of the weights and the bias.
-/
import proofs.«131061_j90718299226372_2_alg».proof.Proof.Gen.Pre_finite_inputs
import proofs.«131061_j90718299226372_2_alg».proof.Proof.Consts
import Idealize.ShloMosaic.Lib.ReduceAll
import Idealize.ShloMosaic.Lib.ValueIdx
import Idealize.ShloMosaic.Lib.Affine
import Idealize.ShloMosaic.PureOps.Ideal.Laws

noncomputable section

open Idealize.ShloMosaic

namespace Cert.Pre_finite_inputs.Finite

open Cert.Pre_finite_inputs

/-- The rank-0 shape has one index. -/
instance : Subsingleton S_.Idx := ⟨fun a b => funext fun d => d.elim0⟩

/-- An extended real whose absolute value is below +∞ is a real. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  induction x using EReal.rec with
  | bot => simp at hlt
  | coe r => exact ⟨r, rfl⟩
  | top => simp at hlt

/-- Under the precondition every entry of the first two arguments is a real. -/
theorem reals_of_pre (a0 : FVec Ideal S4096x64 .f32) (a1 : FVec Ideal S2048x32x64 .f32) (a2 : FVec Ideal S64x64 .f32)
    (a3 : FVec Ideal S64 .f32) (h : fn (F := Ideal) a0 a1 a2 a3 = fun _ => 1#1) :
    (∀ i : S4096x64.Idx, ∃ r : ℝ, a0 i = (r : EReal)) ∧ (∀ i : S2048x32x64.Idx, ∃ r : ℝ, a1 i = (r : EReal)) := by
  have h0 := congrFun h ValueIdx.ix0
  dsimp only [fn, fn_part1] at h0
  obtain ⟨h123, -⟩ := IntOp.andi_eq_one.mp h0
  obtain ⟨h12, -⟩ := IntOp.andi_eq_one.mp h123
  obtain ⟨h1, h2⟩ := IntOp.andi_eq_one.mp h12
  refine ⟨fun i => ?_, fun i => ?_⟩
  · have e : Ideal.cmp .olt (max (a0 i) (-(a0 i))) (Ideal.ofBits .f32 0x7F800000#32) = 1#1 :=
      Host.reduce_andi_all _ _ _ _ _ h1 i
    rw [Cert.Consts.ofBits_inf] at e
    exact real_of_abs_lt_top _ e
  · have e : Ideal.cmp .olt (max (a1 i) (-(a1 i))) (Ideal.ofBits .f32 0x7F800000#32) = 1#1 :=
      Host.reduce_andi_all _ _ _ _ _ h2 i
    rw [Cert.Consts.ofBits_inf] at e
    exact real_of_abs_lt_top _ e

end Cert.Pre_finite_inputs.Finite

end
-- ==== Proof.Meet.lean ====
/-
  Where the two programs meet.

  Both results are stated over the same four plain matrices: the user argument, the sequence argument re-laid as
  [65536, 64], the weight argument and the bias argument. The kernel's result array is the Gram road over them (the
  arrays the region finds are the arguments themselves, the sequence matrix and the bias row through the program's
  two re-layings); the reference's value is the normalized-score road over them. Under the precondition the user and
  sequence matrices have real entries, the clamp word is a positive real, and the law makes the two roads one.
-/
import proofs.«131061_j90718299226372_2_alg».proof.Proof.Result
import proofs.«131061_j90718299226372_2_alg».proof.Proof.RefValue
import proofs.«131061_j90718299226372_2_alg».proof.Proof.Finite
import proofs.«131061_j90718299226372_2_alg».proof.Proof.Consts

noncomputable section

open Idealize.ShloMosaic Idealize.ShloMosaic.TcCoe Idealize.SL.Sem Idealize.ShloMosaic.ValueIdx

namespace Cert.Meet

open Cert.GramLaw Cert.ReferenceIdeal.RefValue

/-- Under the precondition the two roads over the reference's matrices agree. -/
theorem roads_agree (x0 : (⟨Cert.ReferenceIdeal.S4096x64, .f32⟩ : BufTy).Contents (Elt Ideal))
    (x1 : (⟨Cert.ReferenceIdeal.S2048x32x64, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (h : Cert.Pre_finite_inputs.fn (F := Ideal) x0 x1 x2 x3 = fun _ => 1#1) :
    outGram (Ideal.ofBits .f32 0x2B8CBCCC#32) (Ideal.ofBits .f32 0x47800000#32) (usersOf x0) (seqsOf x1) (weightsOf x2) (biasOf x3)
      = outScores (Ideal.ofBits .f32 0x2B8CBCCC#32) (Ideal.ofBits .f32 0x47800000#32) (usersOf x0) (seqsOf x1) (weightsOf x2) (biasOf x3) := by
  obtain ⟨h0, h1⟩ := Cert.Pre_finite_inputs.Finite.reals_of_pre x0 x1 x2 x3 h
  choose u hu using h0
  choose s hs using h1
  have hU : usersOf x0 = fun n d => ((u (ix2 n d) : ℝ) : EReal) := funext fun n => funext fun d => hu (ix2 n d)
  have hS : seqsOf x1 = fun k d => ((s (Cert.ReferenceIdeal.Read.idx_main_v0 (ix2 k d)) : ℝ) : EReal) :=
    funext fun k => funext fun d => by
      unfold seqsOf
      rw [Cert.ReferenceIdeal.Read.val_main_v0_apply]
      exact hs _
  rw [hU, hS]
  exact out_eq _ _ Cert.Consts.clamp_pos _ _ _ _

open Cert.KernelIdeal Cert.KernelIdeal.Gen Cert.KernelIdeal.Carried in
/-- The kernel's result array is the Gram road over the same matrices of its own arguments. -/
theorem kernel_result (m : (ℓ : Loc Cert.KernelIdeal.nD Cert.KernelIdeal.τ Cert.KernelIdeal.sig) → Buf (Elt Ideal) ℓ)
    (c : Dev Cert.KernelIdeal.nD) (n : Fin 4096) (o : Fin 64) :
    Cert.KernelIdeal.Result.result m c (ix2 n o)
      = outGram (Ideal.ofBits .f32 0x2B8CBCCC#32) (Ideal.ofBits .f32 0x47800000#32)
          (usersOf (m ((c.tc : Thread Cert.KernelIdeal.nD Cert.KernelIdeal.τ).loc Cert.KernelIdeal.main_arg0)))
          (seqsOf (m ((c.tc : Thread Cert.KernelIdeal.nD Cert.KernelIdeal.τ).loc Cert.KernelIdeal.main_arg1)))
          (weightsOf (m ((c.tc : Thread Cert.KernelIdeal.nD Cert.KernelIdeal.τ).loc Cert.KernelIdeal.main_arg2)))
          (biasOf (m ((c.tc : Thread Cert.KernelIdeal.nD Cert.KernelIdeal.τ).loc Cert.KernelIdeal.main_arg3))) n o := by
  have hU : users m c = usersOf (m ((c.tc : Thread nD τ).loc main_arg0)) := funext fun n => funext fun d => by
    unfold users usersOf
    rw [V_main_arg0]
  have hS : seqs m c = seqsOf (m ((c.tc : Thread nD τ).loc main_arg1)) := funext fun k => funext fun d => by
    unfold seqs seqsOf
    rw [Cert.KernelIdeal.Blocks.seqArr]
    rfl
  have hW : weights m c = weightsOf (m ((c.tc : Thread nD τ).loc main_arg2)) := funext fun a => funext fun b => by
    unfold weights weightsOf
    rw [V_main_arg2]
  have hB : biasRow m c = biasOf (m ((c.tc : Thread nD τ).loc main_arg3)) := funext fun o => by
    unfold biasRow biasOf
    rw [Cert.KernelIdeal.Blocks.biasArr]
    exact shapeCast_apply _ _ (ix2 (0 : Fin 1) o) (ix1 o) (by
      rewrite [Shape.rowMajor_val_one, Shape.rowMajor_val_two]
      show o.val = 0 * 64 + o.val
      omega)
  unfold Cert.KernelIdeal.Result.result
  rw [hU, hS, hW, hB]

end Cert.Meet

end
-- ==== Proof.lean ====
/-
  A message-passing layer: every user row attends to all 65536 sequence rows, the attention is L1-normalized per
  row (its mass clamped below), the normalized attention aggregates the sequence rows, the mean over the rows goes
  through a linear layer, and the user row is added back.

  The reference does exactly this, forming the 4096 × 65536 score matrix. The kernel never forms the aggregate from
  the score matrix: over a grid of 2 user tiles × 64 sequence blocks it accumulates, per tile, each row's L1 mass and
  the 64 × 64 Gram matrix of the sequence rows, and at the tile's last block multiplies the user tile into the Gram
  matrix and divides once by the clamped mass. The two agree because the aggregate is linear in the scores: the sums
  over features and over sequence rows exchange, and the division by the (positive, real) clamped mass distributes
  over the sum. On the extended reals that law needs real entries, which the precondition provides.

  Modules: GramLaw (the law, no program), Consts (two float words), Finite (the precondition read), PayloadAt (the
  body's arithmetic entry by entry), Pieces (each control case's stores read back), Blocks (where the loads come from),
  Accumulate (64 blocks make the whole sum), Carried (the buffers after every point), Result (the array the run
  leaves), RefValue (the reference entry by entry), Meet (both over the same matrices), and the claims below.
-/
import proofs.«131061_j90718299226372_2_alg».proof.Defs
import proofs.«131061_j90718299226372_2_alg».proof.Proof.Gen.Kernel
import proofs.«131061_j90718299226372_2_alg».proof.Proof.Gen.Kernel.Frame
import proofs.«131061_j90718299226372_2_alg».proof.Proof.Gen.KernelIdeal
import proofs.«131061_j90718299226372_2_alg».proof.Proof.Gen.KernelIdeal.Frame
import proofs.«131061_j90718299226372_2_alg».proof.Proof.Gen.KernelIdeal.Value
import proofs.«131061_j90718299226372_2_alg».proof.Proof.Gen.ReferenceIdeal
import proofs.«131061_j90718299226372_2_alg».proof.Proof.Gen.ReferenceIdeal.Run
import proofs.«131061_j90718299226372_2_alg».proof.Proof.Gen.ReferenceIdeal.Read
import proofs.«131061_j90718299226372_2_alg».proof.Proof.Gen.Pre_finite_inputs
import proofs.«131061_j90718299226372_2_alg».proof.Proof.Meet
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same array: the kernel's is the Gram road,
    the reference's the normalized-score road, over the same four matrices, and under the precondition the roads agree. -/
theorem algebraic : Cert.algebraic_KernelIdeal_ReferenceIdeal := by
  intro m ρ m' ρ' hpre hagree
  refine ⟨Cert.KernelIdeal.Result.result m, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  funext i
  obtain ⟨n, o, rfl⟩ : ∃ (n : Fin 4096) (o : Fin 64), i = ix2 n o := ⟨i 0, i 1, eq_ix2 i⟩
  rw [Cert.ReferenceIdeal.RefValue.result_at, Cert.Meet.kernel_result, Cert.Meet.roads_agree _ _ _ _ (hpre c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
